-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x250x250 : Shape := ⟨3, ![4096, 250, 250]⟩
abbrev S_ : Shape := ⟨0, ![]⟩

class Facts : Prop where
  bcast_S_S4096x250x250 : S_.BroadcastsInDim S4096x250x250 (![] : Fin 0 → Fin S4096x250x250.rank)
  reducesTo_S4096x250x250_S_d0_1_2 : S4096x250x250.ReducesTo [0, 1, 2] S_
  h_S_ : 0 < S_.numel

variable [Facts]

def fn {F : FTy → Type} [FloatOps F] (main_arg0 : FVec F S4096x250x250 .f32) : IVec S_ 1 :=
  let main_v0 : FVec F S4096x250x250 .f32 := Host.absf main_arg0
  let main_cst : FVec F S_ .f32 := constant S_ .f32 0x7F800000#32
  let main_v1 : FVec F S4096x250x250 .f32 := broadcastInDim S4096x250x250 ![] bcast_S_S4096x250x250 main_cst
  let main_v2 : IVec S4096x250x250 1 := cmpf .olt main_v0 main_v1
  let main_c : IVec S_ 1 := constantI S_ 1 1#1
  let main_v3 : IVec S_ 1 := (fun x v => Host.reduce IntOp.andi x v reducesTo_S4096x250x250_S_d0_1_2 h_S_) main_v2 main_c
  main_v3
-- ==== Kernel.lean ====
abbrev S4096x250x250 : Shape := ⟨3, ![4096, 250, 250]⟩
abbrev S4096x10 : Shape := ⟨2, ![4096, 10]⟩
abbrev S512x16x128 : Shape := ⟨3, ![512, 16, 128]⟩
abbrev S512x10 : Shape := ⟨2, ![512, 10]⟩
abbrev S512x12x12 : Shape := ⟨3, ![512, 12, 12]⟩
abbrev S512x12 : Shape := ⟨2, ![512, 12]⟩
abbrev S512 : Shape := ⟨1, ![512]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x250x250, .f32⟩
  | .hbm, ⟨1, _⟩ => ⟨S4096x10, .f32⟩
  | .local _ .vmem, ⟨0, _⟩ => ⟨S512x16x128, .f32⟩
  | .local _ .vmem, ⟨1, _⟩ => ⟨S512x16x128, .f32⟩
  | .local _ .vmem, ⟨2, _⟩ => ⟨S512x10, .f32⟩
  | .local _ .vmem, ⟨3, _⟩ => ⟨S512x10, .f32⟩
  | _, _ => ⟨S4096x250x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x16x128_S512x12x12_0_0_0 : ∀ a, (![0, 0, 0] : Fin 3 → Nat) a + S512x12x12.size a ≤ S512x16x128.size a
  h_S512x12x12 : 0 < S512x12x12.numel
  reduces_S512x12x12_S512x12 : S512x12x12.Reduces [2] S512x12
  reduces_S512x12_S512 : S512x12.Reduces [1] S512
  shapeCasts_S512_S512x1 : S512.ShapeCasts S512x1
  shapeCasts_S512x1_S512x1 : S512x1.ShapeCasts S512x1
  broadcasts_S512x1_S512x10 : S512x1.Broadcasts S512x10
  reduces_S512x10_S512 : S512x10.Reduces [1] S512
  inb_S512x10_S512x10_0_0 : ∀ a, (![0, 0] : Fin 2 → Nat) a + S512x10.size a ≤ S512x10.size a
  h_S512x10 : 0 < S512x10.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x16x128.size a < S4096x250x250.size a
  hwx0_0 : ∀ i : grid0.Coords, EltTy.bits .f32 = 32 ∨ (Rect.unit (s := S4096x250x250) (fun a => cc0_transform_0 i a * S512x16x128.size a) (fun a => (Pipeline.Clip.of (cc0_transform_0 i a) (S512x16x128.size a) (S4096x250x250.size a)).extent (S512x16x128.size a)) fun a => Pipeline.Clip.inb (Pipeline.Clip.ok_of (hstart0_0 i a))).WholeWords (EltTy.packing .f32)
  hwxs0_0 : ∀ i : grid0.Coords, EltTy.bits .f32 = 32 ∨ (Rect.unit (s := S512x16x128) (fun _ => 0) (fun a => (Pipeline.Clip.of (cc0_transform_0 i a) (S512x16x128.size a) (S4096x250x250.size a)).extent (S512x16x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x10.size a ≤ S4096x10.size a
  hwx0_1 : ∀ i : grid0.Coords, EltTy.bits .f32 = 32 ∨ (Rect.block (s := S4096x10) S512x10.size (cc0_transform_1 i) (hinb0_1 i)).WholeWords (EltTy.packing .f32)

variable [Facts₀]

abbrev win0_0 : Pipeline.Window sig grid0 :=
  Pipeline.Window.ofSpecClip (Memref.whole main_arg0) S512x16x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x10.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x250x250 : Shape := ⟨3, ![4096, 250, 250]⟩
abbrev S4096x12x12 : Shape := ⟨3, ![4096, 12, 12]⟩
abbrev S_ : Shape := ⟨0, ![]⟩
abbrev S4096 : Shape := ⟨1, ![4096]⟩
abbrev S4096x1 : Shape := ⟨2, ![4096, 1]⟩
abbrev S4096x10 : Shape := ⟨2, ![4096, 10]⟩

abbrev nBuf : Space → Nat
  | .hbm => 51
  | .vmem => 0
  | .smem => 0
  | _ => 0

abbrev bufTy : (tb : Table) → Fin (tcTables nBuf tb) → BufTy
  | .hbm, ⟨0, _⟩ => ⟨S4096x250x250, .f32⟩
  | .hbm, ⟨1, _⟩ => ⟨S4096x250x250, .f32⟩
  | .hbm, ⟨2, _⟩ => ⟨S4096x250x250, .f32⟩
  | .hbm, ⟨3, _⟩ => ⟨S4096x12x12, .f32⟩
  | .hbm, ⟨4, _⟩ => ⟨S_, .f32⟩
  | .hbm, ⟨5, _⟩ => ⟨S4096, .f32⟩
  | .hbm, ⟨6, _⟩ => ⟨S4096x12x12, .f32⟩
  | .hbm, ⟨7, _⟩ => ⟨S_, .f32⟩
  | .hbm, ⟨8, _⟩ => ⟨S4096, .f32⟩
  | .hbm, ⟨9, _⟩ => ⟨S4096x12x12, .f32⟩
  | .hbm, ⟨10, _⟩ => ⟨S_, .f32⟩
  | .hbm, ⟨11, _⟩ => ⟨S4096, .f32⟩
  | .hbm, ⟨12, _⟩ => ⟨S4096x12x12, .f32⟩
  | .hbm, ⟨13, _⟩ => ⟨S_, .f32⟩
  | .hbm, ⟨14, _⟩ => ⟨S4096, .f32⟩
  | .hbm, ⟨15, _⟩ => ⟨S4096x12x12, .f32⟩
  | .hbm, ⟨16, _⟩ => ⟨S_, .f32⟩
  | .hbm, ⟨17, _⟩ => ⟨S4096, .f32⟩
  | .hbm, ⟨18, _⟩ => ⟨S4096x12x12, .f32⟩
  | .hbm, ⟨19, _⟩ => ⟨S_, .f32⟩
  | .hbm, ⟨20, _⟩ => ⟨S4096, .f32⟩
  | .hbm, ⟨21, _⟩ => ⟨S4096x12x12, .f32⟩
  | .hbm, ⟨22, _⟩ => ⟨S_, .f32⟩
  | .hbm, ⟨23, _⟩ => ⟨S4096, .f32⟩
  | .hbm, ⟨24, _⟩ => ⟨S4096x12x12, .f32⟩
  | .hbm, ⟨25, _⟩ => ⟨S_, .f32⟩
  | .hbm, ⟨26, _⟩ => ⟨S4096, .f32⟩
  | .hbm, ⟨27, _⟩ => ⟨S4096x12x12, .f32⟩
  | .hbm, ⟨28, _⟩ => ⟨S_, .f32⟩
  | .hbm, ⟨29, _⟩ => ⟨S4096, .f32⟩
  | .hbm, ⟨30, _⟩ => ⟨S4096x12x12, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x10, .f32⟩
  | .hbm, ⟨44, _⟩ => ⟨S4096x10, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1, .f32⟩
  | .hbm, ⟨49, _⟩ => ⟨S4096x10, .f32⟩
  | .hbm, ⟨50, _⟩ => ⟨S4096x10, .f32⟩
  | _, _ => ⟨S4096x250x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_cst_8 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  slices_S4096x250x250_S4096x12x12_0_0_0 : S4096x250x250.Slices ![0, 0, 0] S4096x12x12
  reducesTo_S4096x12x12_S4096_d1_2 : S4096x12x12.ReducesTo [1, 2] S4096
  h_S_ : 0 < S_.numel
  bcast_S4096_S4096x1_0 : S4096.BroadcastsInDim S4096x1 (![0] : Fin 1 → Fin S4096x1.rank)
  concatenates_S4096x1_S4096x1_S4096x1_S4096x1_S4096x1_S4096x1_S4096x1_S4096x1_S4096x1_S4096x1_S4096x10_d1 : Shape.Concatenates [S4096x1, S4096x1, S4096x1, S4096x1, S4096x1, S4096x1, S4096x1, S4096x1, S4096x1, S4096x1] S4096x10 1
  reducesTo_S4096x10_S4096_d1 : S4096x10.ReducesTo [1] S4096
  bcast_S4096x1_S4096x10_0_1 : S4096x1.BroadcastsInDim S4096x10 (![0, 1] : Fin 2 → Fin S4096x10.rank)

variable [Facts₀]

class Facts : Prop extends Facts₀ where

variable [Facts]
-- ==== Proof.PoolFrameBits.lean ====
/-
  The frame of the pooling kernel `Kernel`, with the value every output block ends at.

  The kernel runs on a grid of 8 points. At point `t` its input window stages the block
  `u[512 t ‥ 512 t + 511, 0 ‥ 15, 0 ‥ 127]` of the array `u : f32[4096, 250, 250]` and its output window the block
  `out[512 t ‥ 512 t + 511, 0 ‥ 9]` of `out : f32[4096, 10]`. The input array's trailing axes (250, 250) are no
  multiples of the block's (16, 128), so the window is one whose blocks MAY overhang the array; here they never do:
  the block index on those two axes is always 0, and 16 ≤ 250, 128 ≤ 250. So no transfer is cut (`uncut`), every
  fetch fills the whole staging buffer, and the buffer's contents when the body runs are the block, whatever the
  buffer held before (`held`, `before_in`).

  The body reads the corner `[0 ‥ 511, 0 ‥ 11, 0 ‥ 11]` of the input buffer (`cornerRect`), computes one payload from it
  (the generated skeleton's `k0_pay1`) and stores it over the whole output buffer (`wholeOut`). So after the body the
  output buffer holds `blockOut x = k0_pay1 (corner of x)` of the input buffer's contents `x` (`sound_kernel`), and the
  frame follows from the library's frame run (`run_main`, `frame`). This file is the frame and block value of the word-level program; the same text, read over machine words.
-/
import proofs.«162748_j56538949484865_2_alg».proof.Proof.Gen.Kernel.Frame
import proofs.«162748_j56538949484865_2_alg».proof.Proof.Gen.Kernel.Skeleton
import Idealize.ShloMosaic.Lib.Pipeline.Frame
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The corner `[0 ‥ 511, 0 ‥ 11, 0 ‥ 11]` of the input buffer: all the body reads of it. -/
abbrev cornerRect : Rect S512x16x128 :=
  Rect.unit (s := S512x16x128) ![0, 0, 0] S512x12x12.size inb_S512x16x128_S512x12x12_0_0_0
/-- The whole output buffer. -/
abbrev wholeOut : Rect S512x10 := Rect.unit (s := S512x10) ![0, 0] S512x10.size inb_S512x10_S512x10_0_0

/-! ## What the body leaves in the output buffer -/

/-- The output buffer after the body, as a function of the input buffer's contents `x`: its one store, of the
    payload of `x`'s corner, over the whole buffer. -/
def blockOut (x : Vec F S512x16x128 .f32) : Vec F S512x10 .f32 :=
  View.canon [⟨wholeOut, k0_pay1 (View.ld x cornerRect)⟩]

/-- That one store covers the output buffer. -/
theorem cover_out (p0 : Vec F S512x10 .f32) (y : S512x10.Idx) :
    ∃ pc ∈ ([⟨wholeOut, p0⟩] : List (View.Piece (Elt F) S512x10 .f32)), y ∈ pc.1.set :=
  View.cover_of_tiled [⟨wholeOut, p0⟩] S512x10.size (by rfl) y

/-! ## The body's triple -/

set_option maxHeartbeats 1000000 in
/-- The kernel body on whole staging memrefs — the input's at read contents `x0`, the output's at anything — runs to
    the continuation holding the input's as it was and the output's at `blockOut x0`. -/
theorem sound_kernel (c : Dev nD) (E : Set ℕ) (i : grid0.Coords)
    (arg1 : Memref sig .tc .vmem S512x16x128 .f32) (harg1 : arg1.IsWhole)
    (arg2 : Memref sig .tc .vmem S512x10 .f32) (harg2 : arg2.IsWhole)
    (x0 : Vec F S512x16x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__pool_norm_kernel i arg1 harg1 arg2 harg2) K := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The input buffer when the body runs -/

/-- No transfer of the input window is cut: at every grid point its block lies inside the array on every axis
    (`512 (t + 1) ≤ 4096`, `16 ≤ 250`, `128 ≤ 250`). -/
theorem uncut : ∀ (t : Fin cfg0.N) a, (cfg0.win 0).clip (cfg0.grid.coords t) a = none :=
  (by decide +kernel : ∀ (t : Fin grid0.N) a, win0_0.clip (grid0.coords t) a = none)

/-- The input buffer's contents when the body runs at point `t`: the block of `u` there. (Stated as the block laid
    over the zero word; the fetch is uncut, so it takes nothing from what it is laid over: `before_in`.) -/
def held (c : Dev nD) (t : Fin cfg0.N) : Vec F S512x16x128 .f32 :=
  (cfg0.win 0).fill (cfg0.grid.coords t) (fun _ => Scalar.ofBits .f32 0#32) (iblk m c 0 t)

/-! ## The pipeline's proof data -/

/-- The proof data of the one pipeline on core `c`: the arrays as the region finds them; after the body at point `t`
    the input's buffer at its block and the output's at `blockOut` of it; the invariant the frame's (the scoped rest and
    the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => held m c t
    | ⟨1, _⟩ => blockOut (held m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = held m c t := by dsimp only [dats]
theorem after_out (c : Dev nD) (t : Fin cfg0.N) : (dats m 0 c).after 1 t = blockOut (held m c t) := by dsimp only [dats]

/-- The input window is fetched at every point and the fetch is uncut: whatever the buffer held, the body finds the
    block. -/
theorem before_in (c : Dev nD) (t : Fin cfg0.N) (d) : (dats m 0 c).before 0 t d = held m c t := by
  unfold Dat.before; rw [if_pos (fetch0_0 t)]
  unfold Dat.fetched Dat.blockOf held iblk
  rw [A_eq]
  exact Pipeline.fill_of_clip_none 0 _ (uncut t) _ _ _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the input's buffer stated on the part its transfers move (all of it), the output's
    exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t))

/-- The body at any point: the input's memref holds its block (`before_in`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (held m c t) _)
  isplitl [H0]; · iexact H0
  isplitl [H1]; · iexists _; iexact H1
  iintro ⟨H0, H1⟩
  isplitl [HΦ]; · iexact HΦ
  isplitl [Ho]; · iexact Ho
  isplitl [H0]
  · iexists held m c t
    rw [Window.fill_cut]; iexact H0
  iexact H1

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves `u` as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.PoolFrameIdeal.lean ====
/-
  The frame of the pooling kernel `KernelIdeal`, with the value every output block ends at.

  The kernel runs on a grid of 8 points. At point `t` its input window stages the block
  `u[512 t ‥ 512 t + 511, 0 ‥ 15, 0 ‥ 127]` of the array `u : f32[4096, 250, 250]` and its output window the block
  `out[512 t ‥ 512 t + 511, 0 ‥ 9]` of `out : f32[4096, 10]`. The input array's trailing axes (250, 250) are no
  multiples of the block's (16, 128), so the window is one whose blocks MAY overhang the array; here they never do:
  the block index on those two axes is always 0, and 16 ≤ 250, 128 ≤ 250. So no transfer is cut (`uncut`), every
  fetch fills the whole staging buffer, and the buffer's contents when the body runs are the block, whatever the
  buffer held before (`held`, `before_in`).

  The body reads the corner `[0 ‥ 511, 0 ‥ 11, 0 ‥ 11]` of the input buffer (`cornerRect`), computes one payload from it
  (the generated skeleton's `k0_pay1`) and stores it over the whole output buffer (`wholeOut`). So after the body the
  output buffer holds `blockOut x = k0_pay1 (corner of x)` of the input buffer's contents `x` (`sound_kernel`), and the
  frame follows from the library's frame run (`run_main`, `frame`). This file is the frame and block value of the program read over the extended reals; the word-level program's is beside it, the same text.
-/
import proofs.«162748_j56538949484865_2_alg».proof.Proof.Gen.KernelIdeal.Frame
import proofs.«162748_j56538949484865_2_alg».proof.Proof.Gen.KernelIdeal.Skeleton
import Idealize.ShloMosaic.Lib.Pipeline.Frame
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The corner `[0 ‥ 511, 0 ‥ 11, 0 ‥ 11]` of the input buffer: all the body reads of it. -/
abbrev cornerRect : Rect S512x16x128 :=
  Rect.unit (s := S512x16x128) ![0, 0, 0] S512x12x12.size inb_S512x16x128_S512x12x12_0_0_0
/-- The whole output buffer. -/
abbrev wholeOut : Rect S512x10 := Rect.unit (s := S512x10) ![0, 0] S512x10.size inb_S512x10_S512x10_0_0

/-! ## What the body leaves in the output buffer -/

/-- The output buffer after the body, as a function of the input buffer's contents `x`: its one store, of the
    payload of `x`'s corner, over the whole buffer. -/
def blockOut (x : Vec F S512x16x128 .f32) : Vec F S512x10 .f32 :=
  View.canon [⟨wholeOut, k0_pay1 (View.ld x cornerRect)⟩]

/-- That one store covers the output buffer. -/
theorem cover_out (p0 : Vec F S512x10 .f32) (y : S512x10.Idx) :
    ∃ pc ∈ ([⟨wholeOut, p0⟩] : List (View.Piece (Elt F) S512x10 .f32)), y ∈ pc.1.set :=
  View.cover_of_tiled [⟨wholeOut, p0⟩] S512x10.size (by rfl) y

/-! ## The body's triple -/

set_option maxHeartbeats 1000000 in
/-- The kernel body on whole staging memrefs — the input's at read contents `x0`, the output's at anything — runs to
    the continuation holding the input's as it was and the output's at `blockOut x0`. -/
theorem sound_kernel (c : Dev nD) (E : Set ℕ) (i : grid0.Coords)
    (arg1 : Memref sig .tc .vmem S512x16x128 .f32) (harg1 : arg1.IsWhole)
    (arg2 : Memref sig .tc .vmem S512x10 .f32) (harg2 : arg2.IsWhole)
    (x0 : Vec F S512x16x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (blockOut x0)) -∗ K ⟨⟩))
      ⊢ wp frame (wpE (defs₀ (F := F)) Variants.none c none) E (cc0__pool_norm_kernel i arg1 harg1 arg2 harg2) K := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The input buffer when the body runs -/

/-- No transfer of the input window is cut: at every grid point its block lies inside the array on every axis
    (`512 (t + 1) ≤ 4096`, `16 ≤ 250`, `128 ≤ 250`). -/
theorem uncut : ∀ (t : Fin cfg0.N) a, (cfg0.win 0).clip (cfg0.grid.coords t) a = none :=
  (by decide +kernel : ∀ (t : Fin grid0.N) a, win0_0.clip (grid0.coords t) a = none)

/-- The input buffer's contents when the body runs at point `t`: the block of `u` there. (Stated as the block laid
    over the zero word; the fetch is uncut, so it takes nothing from what it is laid over: `before_in`.) -/
def held (c : Dev nD) (t : Fin cfg0.N) : Vec F S512x16x128 .f32 :=
  (cfg0.win 0).fill (cfg0.grid.coords t) (fun _ => Scalar.ofBits .f32 0#32) (iblk m c 0 t)

/-! ## The pipeline's proof data -/

/-- The proof data of the one pipeline on core `c`: the arrays as the region finds them; after the body at point `t`
    the input's buffer at its block and the output's at `blockOut` of it; the invariant the frame's (the scoped rest and
    the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => held m c t
    | ⟨1, _⟩ => blockOut (held m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = held m c t := by dsimp only [dats]
theorem after_out (c : Dev nD) (t : Fin cfg0.N) : (dats m 0 c).after 1 t = blockOut (held m c t) := by dsimp only [dats]

/-- The input window is fetched at every point and the fetch is uncut: whatever the buffer held, the body finds the
    block. -/
theorem before_in (c : Dev nD) (t : Fin cfg0.N) (d) : (dats m 0 c).before 0 t d = held m c t := by
  unfold Dat.before; rw [if_pos (fetch0_0 t)]
  unfold Dat.fetched Dat.blockOf held iblk
  rw [A_eq]
  exact Pipeline.fill_of_clip_none 0 _ (uncut t) _ _ _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: the input's buffer stated on the part its transfers move (all of it), the output's
    exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t))

/-- The body at any point: the input's memref holds its block (`before_in`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (held m c t) _)
  isplitl [H0]; · iexact H0
  isplitl [H1]; · iexists _; iexact H1
  iintro ⟨H0, H1⟩
  isplitl [HΦ]; · iexact HΦ
  isplitl [Ho]; · iexact Ho
  isplitl [H0]
  · iexists held m c t
    rw [Window.fill_cut]; iexact H0
  iexact H1

/-- The library's body obligation, at every point. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves `u` as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.PoolSpec.lean ====
/-
  The pooling-and-normalising map, as one function of the image array, and the two laws that join its two spellings.

  For an array `u : f32[4096, 250, 250]` read over the extended reals, image `b` has the ENERGY
      `energy b = ∑ r < 12, ∑ c < 12, u[b, r, c] · u[b, r, c]`
  of its top-left 12 × 12 corner, and the result `f32[4096, 10]` holds, in each of row `b`'s ten places,
      `energy b / √(∑ k < 10, energy b · energy b)`
  (`normalise`: the row of ten equal entries divided by its Euclidean norm; division and square root are the extended
  reals' of the float operations, corners included, so nothing is assumed of `energy b`, zero included).

  The two programs spell this differently in two places only, and each is a law of the extended reals that needs no
  finiteness: the reference squares `|x|` where the kernel squares `x` (`abs_mul_abs`: `max x (−x)` times itself is
  `x · x`, since `(−x) · (−x) = x · x`), and the reference sums the corner as ONE sum over the array indices with first
  coordinate `b` where the kernel sums lanes, then rows (`sum_fiber`: the indices with first coordinate `b` are the
  pairs (r, c), so the sum over them is the double sum — addition on the extended reals is commutative and associative).
-/
import Idealize.ShloMosaic.PureOps.Ideal
import Idealize.ShloMosaic.PureOps.Ideal.Laws
import Idealize.ShloMosaic.Lib.ValueIdx

noncomputable section

namespace Cert.PoolSpec

open Idealize.ShloMosaic Idealize.ShloMosaic.ValueIdx
open scoped BigOperators

/-- The sum of the squares of a 12 × 12 patch. -/
def energyOf (w : Fin 12 → Fin 12 → EReal) : EReal := ∑ r : Fin 12, ∑ c : Fin 12, w r c * w r c

/-- One entry of a row of ten equal entries `e`, divided by the row's Euclidean norm. -/
def normalise (e : EReal) : EReal := Ideal.div e (Ideal.sqrt (∑ _k : Fin 10, e * e))

/-- Image `b`'s corner entry (r, c), as an index of the whole array. -/
abbrev corner (b : Fin 4096) (r c : Fin 12) : (⟨3, ![4096, 250, 250]⟩ : Shape).Idx :=
  ix3 b (⟨r.val, by omega⟩ : Fin 250) (⟨c.val, by omega⟩ : Fin 250)

/-- The result array as one function of the image array. -/
def pooled (u : (⟨3, ![4096, 250, 250]⟩ : Shape).Idx → EReal) : (⟨2, ![4096, 10]⟩ : Shape).Idx → EReal :=
  fun j => normalise (energyOf fun r c => u (corner (j 0) r c))

/-- Squaring the absolute value is squaring, on every extended real. -/
theorem abs_mul_abs (x : EReal) : max x (-x) * max x (-x) = x * x := by
  rcases max_choice x (-x) with h | h <;> rw [h]
  exact neg_mul_neg x x

/-- A rank-3 index set is the product of its three coordinate ranges, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- so a sum over it is the triple sum over the coordinates, -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- and the sum over the indices whose first coordinate is `b` is the double sum over the other two. -/
theorem sum_fiber {M : Type*} [AddCommMonoid M] {n0 n1 n2 : Nat} (f : (⟨3, ![n0, n1, n2]⟩ : Shape).Idx → M) (b : Fin n0) :
    ∑ i ∈ Finset.univ.filter (fun i : (⟨3, ![n0, n1, n2]⟩ : Shape).Idx => (i 0).val = b.val), f i
      = ∑ r : Fin n1, ∑ c : Fin n2, f (ix3 b r c) := by
  rw [Finset.sum_filter, sum_idx3]
  rw [Finset.sum_eq_single b]
  · refine Finset.sum_congr rfl fun r _ => Finset.sum_congr rfl fun c _ => ?_
    exact if_pos rfl
  · intro a _ hab
    refine Finset.sum_eq_zero fun r _ => Finset.sum_eq_zero fun c _ => ?_
    exact if_neg fun h => hab (Fin.ext h)
  · intro h; exact absurd (Finset.mem_univ b) h

end Cert.PoolSpec

end
-- ==== Proof.PoolBlockValue.lean ====
/-
  What the pooling kernel's body computes, read over the extended reals, entry by entry.

  The body's one payload is a function of the 512 × 12 × 12 corner `x` it loaded. Read at the output block's entry
  (p, q) it is: the lane sums `∑ c, x[p, r, c]²`, then their row sum — image `p`'s energy —, spread over the ten places
  of row `p`; the ten squares of that summed, the square root taken, spread again; and the quotient of the two. Each
  operation is read at an index by one small lemma (a sum over one axis is the sum over that axis's coordinate; a
  reshape to a column and a spread along a row read one entry), and the chain is `PoolSpec.normalise` of
  `PoolSpec.energyOf` of the corner (`payload_apply`). The output buffer after the body holds exactly that payload
  (`blockOut_apply`), the corner being read off the input buffer at the same coordinates.
-/
import proofs.«162748_j56538949484865_2_alg».proof.Proof.PoolFrameIdeal
import proofs.«162748_j56538949484865_2_alg».proof.Proof.PoolSpec
import Idealize.ShloMosaic.Lib.ValueIdx
import Idealize.ShloMosaic.Lib.Pipeline.Value
import Idealize.ShloMosaic.PureOps.Ideal.Laws

set_option maxRecDepth 16384

noncomputable section

namespace Cert.KernelIdeal.BlockValue

open Cert.KernelIdeal Cert.KernelIdeal.Gen Cert.KernelIdeal.Body Cert.PoolSpec
open Idealize.ShloMosaic Idealize.ShloMosaic.ValueIdx
open scoped BigOperators

/-! ## The body's operations, each read at an index -/

/-- The sum over the lanes of a [512, 12, 12] vector, at (p, r): the sum over the lane coordinate. -/
theorem laneSum (v : FVec Ideal S512x12x12 .f32) (hφ : FKind.Formats .f32)
    (hacc : (0x00000000#32 : BitVec 32) = 0x00000000#32) (p : Fin 512) (r : Fin 12) :
    multiReduction (F := Ideal) .add [2] S512x12 v 0x00000000#32 reduces_S512x12x12_S512x12 hφ hacc (ix2 p r)
      = ∑ c : Fin 12, v (ix3 p r c) := by
  refine (Ideal.multiReduction_add_single v _ reduces_S512x12x12_S512x12 hφ hacc (ix2 p r)).trans ?_
  refine Finset.sum_congr rfl fun c _ => congrArg v ?_
  funext a; match a with | ⟨0, _⟩ => rfl | ⟨1, _⟩ => rfl | ⟨2, _⟩ => rfl

/-- The sum over the rows of a [512, 12] vector, at p: the sum over the row coordinate. -/
theorem rowSum (v : FVec Ideal S512x12 .f32) (hφ : FKind.Formats .f32)
    (hacc : (0x00000000#32 : BitVec 32) = 0x00000000#32) (p : Fin 512) :
    multiReduction (F := Ideal) .add [1] S512 v 0x00000000#32 reduces_S512x12_S512 hφ hacc (ix1 p)
      = ∑ r : Fin 12, v (ix2 p r) := by
  refine (Ideal.multiReduction_add_single v _ reduces_S512x12_S512 hφ hacc (ix1 p)).trans ?_
  refine Finset.sum_congr rfl fun r _ => congrArg v ?_
  funext a; match a with | ⟨0, _⟩ => rfl | ⟨1, _⟩ => rfl

/-- The sum over the ten places of a [512, 10] vector, at p. -/
theorem placeSum (v : FVec Ideal S512x10 .f32) (hφ : FKind.Formats .f32)
    (hacc : (0x00000000#32 : BitVec 32) = 0x00000000#32) (p : Fin 512) :
    multiReduction (F := Ideal) .add [1] S512 v 0x00000000#32 reduces_S512x10_S512 hφ hacc (ix1 p)
      = ∑ k : Fin 10, v (ix2 p k) := by
  refine (Ideal.multiReduction_add_single v _ reduces_S512x10_S512 hφ hacc (ix1 p)).trans ?_
  refine Finset.sum_congr rfl fun k _ => congrArg v ?_
  funext a; match a with | ⟨0, _⟩ => rfl | ⟨1, _⟩ => rfl

/-- A [512] vector reshaped to a column [512, 1], at (p, 0): its entry p. -/
theorem column_apply {α : Type} (v : S512.Idx → α) (p : Fin 512) (z : Fin 1) :
    shapeCast S512x1 v shapeCasts_S512_S512x1 (ix2 p z) = v (ix1 p) := by
  refine shapeCast_apply v shapeCasts_S512_S512x1 (ix2 p z) (ix1 p) ?_
  rw [Shape.rowMajor_val_one, Shape.rowMajor_val_two]
  have hz := z.isLt
  show p.val = p.val * 1 + z.val
  omega

/-- A column [512, 1] spread along the ten places, at (p, q): its entry (p, 0). -/
theorem spread_apply {α : Type} (v : S512x1.Idx → α) (p : Fin 512) (q : Fin 10) :
    broadcastTo S512x10 v broadcasts_S512x1_S512x10 (ix2 p q) = v (ix2 p (0 : Fin 1)) :=
  broadcastTo_apply v broadcasts_S512x1_S512x10 (ix2 p q) (ix2 p (0 : Fin 1))
    (fun a => match a with | ⟨0, _⟩ => rfl | ⟨1, _⟩ => rfl)

/-- The square root of a vector, at an index. -/
theorem sqrt_apply {s : Shape} (v : FVec Ideal s .f32) (i : s.Idx) : sqrt v i = Ideal.sqrt (v i) := rfl

/-! ## The payload -/

/-- The body's payload at entry (p, q) of the output block: the row's ten equal entries, each image `p`'s energy,
    divided by the row's Euclidean norm. -/
theorem payload_apply (x : Vec Ideal S512x12x12 .f32) (p : Fin 512) (q : Fin 10) :
    k0_pay1 (F := Ideal) x (ix2 p q) = normalise (energyOf fun r c => x (ix3 p r c)) := by
  unfold k0_pay1
  simp only [divf_apply, spread_apply, sqrt_apply, column_apply, shapeCast_self]
  unfold normalise energyOf
  -- image `p`'s energy: the row sum of the lane sums of the squares
  have energy_eq : ∀ (hφ : FKind.Formats .f32) (hacc : (0x00000000#32 : BitVec 32) = 0x00000000#32),
      multiReduction (F := Ideal) .add [1] S512
        (multiReduction (F := Ideal) .add [2] S512x12 (mulf x x) 0x00000000#32 reduces_S512x12x12_S512x12 hφ hacc)
        0x00000000#32 reduces_S512x12_S512 hφ hacc (ix1 p)
      = ∑ r : Fin 12, ∑ c : Fin 12, x (ix3 p r c) * x (ix3 p r c) := fun hφ hacc =>
    (rowSum _ hφ hacc p).trans (Finset.sum_congr rfl fun r _ => laneSum (mulf x x) hφ hacc p r)
  refine congrArg₂ Ideal.div (energy_eq _ _) (congrArg Ideal.sqrt ?_)
  refine (placeSum _ _ _ p).trans (Finset.sum_congr rfl fun k _ => ?_)
  have spread_eq : ∀ (hφ : FKind.Formats .f32) (hacc : (0x00000000#32 : BitVec 32) = 0x00000000#32),
      broadcastTo S512x10 (shapeCast S512x1
        (multiReduction (F := Ideal) .add [1] S512
          (multiReduction (F := Ideal) .add [2] S512x12 (mulf x x) 0x00000000#32 reduces_S512x12x12_S512x12 hφ hacc)
          0x00000000#32 reduces_S512x12_S512 hφ hacc) shapeCasts_S512_S512x1) broadcasts_S512x1_S512x10 (ix2 p k)
      = ∑ r : Fin 12, ∑ c : Fin 12, x (ix3 p r c) * x (ix3 p r c) := fun hφ hacc =>
    (spread_apply _ p k).trans ((column_apply _ p 0).trans (energy_eq hφ hacc))
  exact congrArg₂ (· * ·) (spread_eq _ _) (spread_eq _ _)

/-! ## The output buffer after the body -/

theorem offsets_out : (![0, 0] : Fin 2 → Nat) = fun _ => 0 := funext fun a => by fin_cases a <;> rfl

/-- The output buffer after the body, at entry (p, q), from the input buffer's contents `x`: the normalised energy of
    the corner `x[p, 0 ‥ 11, 0 ‥ 11]`. -/
theorem blockOut_apply (x : Vec Ideal S512x16x128 .f32) (p : Fin 512) (q : Fin 10) :
    blockOut (F := Ideal) x (ix2 p q)
      = normalise (energyOf fun r c => x (ix3 p (⟨r.val, by omega⟩ : Fin 16) (⟨c.val, by omega⟩ : Fin 128))) := by
  unfold blockOut
  rw [View.canon_unit_zero offsets_out]
  refine (payload_apply _ p q).trans ?_
  refine congrArg normalise (congrArg energyOf (funext fun r => funext fun c => ?_))
  show x (cornerRect.idx (ix3 p r c)) = x (ix3 p (⟨r.val, _⟩ : Fin 16) (⟨c.val, _⟩ : Fin 128))
  refine congrArg x (funext fun a => Fin.ext ?_)
  match a with
  | ⟨0, _⟩ => show 0 + 1 * p.val = p.val; omega
  | ⟨1, _⟩ => show 0 + 1 * r.val = r.val; omega
  | ⟨2, _⟩ => show 0 + 1 * c.val = c.val; omega

end Cert.KernelIdeal.BlockValue

end
-- ==== Proof.PoolKernelArray.lean ====
/-
  The result array of the pooling kernel after the run, as one function of the image array.

  Point `t` of the grid writes back the output block `out[512 t ‥ 512 t + 511, 0 ‥ 9]`. Its entry (p, q) is the normalised
  energy of the input buffer's corner row `p` (`BlockValue.blockOut_apply`), and the input buffer holds the block of `u`
  at point `t`, whose entry (p, r, c) is `u[512 t + p, r, c]` (`held_apply`: both windows' block index on the leading
  axis is the point, and the input window's on the trailing two axes is 0). So what point `t` writes back is block `t`
  of `PoolSpec.pooled u` (`flushed_eq`). The eight blocks tile the result array — row `i` lies in the block of point
  `i / 512` (`cover`) — so the array ends holding `PoolSpec.pooled u` (`final`), and the run says so (`run`).
-/
import proofs.«162748_j56538949484865_2_alg».proof.Proof.PoolBlockValue
import Idealize.ShloMosaic.Lib.Pipeline.Value

set_option maxRecDepth 16384

noncomputable section

namespace Cert.KernelIdeal.ArrayValue

open Cert.KernelIdeal Cert.KernelIdeal.Gen Cert.KernelIdeal.Body Cert.KernelIdeal.BlockValue Cert.PoolSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps, decided over the grid: on the leading axis both windows' block index is the point; on the
    other axes it is 0. -/
theorem index_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The input buffer when the body runs at point `t`, at an entry `j`: the image array at the index `i` whose
    coordinates are the block's offsets plus `j`'s. -/
theorem held_apply (c : Dev nD) (t : Fin cfg0.N) (j : S512x16x128.Idx) (i : S4096x250x250.Idx)
    (hi : ∀ a, (i a).val = win0_0.index t a * S512x16x128.size a + 1 * (j a).val) :
    held m c t j = V m c main_arg0 i := by
  have hm : (cfg0.win 0).moved (cfg0.grid.coords t) j = true :=
    ((cfg0.win 0).moved_iff _ j).mpr fun a => by
      have := (j a).isLt; unfold Window.xsize; rw [uncut t a]; exact this
  unfold held Window.fill
  rw [dif_pos hm]
  show V m c main_arg0 (((cfg0.win 0).blk t).view.emb _) = V m c main_arg0 i
  refine congrArg _ (funext fun a => Fin.ext ?_)
  exact (hi a).symm

/-- What point `t` writes back is block `t` of the pooled-and-normalised array of `u` as the region finds it. -/
theorem flushed_eq (c : Dev nD) (t : Fin cfg0.N) :
    (dats m 0 c).flushed 1 t = ((cfg0.win 1).blk t).view.read (Elt Ideal) (pooled (V m c main_arg0)) := by
  show (cfg0.win 1).cut (grid0.coords t) ((dats m 0 c).after 1 t) = _
  rw [after_out]
  obtain ⟨e0, e1, e2, e3, e4⟩ := index_facts t
  funext j
  obtain ⟨p, q, rfl⟩ : ∃ (p : Fin 512) (q : Fin 10), j = ix2 p q := ⟨j 0, j 1, eq_ix2 j⟩
  show blockOut (held m c t) (ix2 p q) = pooled (V m c main_arg0) (((cfg0.win 1).blk t).view.emb (ix2 p q))
  rw [blockOut_apply]
  unfold pooled
  refine congrArg normalise (congrArg energyOf (funext fun r => funext fun cc => ?_))
  refine held_apply m c t _ _ fun a => ?_
  match a with
  | ⟨0, _⟩ =>
    show win0_1.index t (0 : Fin 2) * 512 + 1 * p.val = win0_0.index t (0 : Fin 3) * 512 + 1 * p.val
    rw [e0, e3]
  | ⟨1, _⟩ =>
    show r.val = win0_0.index t (1 : Fin 3) * 16 + 1 * r.val
    rw [e1]; omega
  | ⟨2, _⟩ =>
    show cc.val = win0_0.index t (2 : Fin 3) * 128 + 1 * cc.val
    rw [e2]; omega

/-- An index of the result array is in point `t`'s block iff each coordinate is in the block's range on its axis. -/
theorem mem_blk (t : Fin cfg0.N) (i : S4096x10.Idx) :
    i ∈ ((cfg0.win 1).blk t).view.set ↔ ∀ a : Fin 2, win0_1.index t a * S512x10.size a ≤ (i a).val
      ∧ (i a).val < win0_1.index t a * S512x10.size a + S512x10.size a := by
  show i ∈ ((View.whole main_v0).slice (win0_1.rect t)).set ↔ _
  rw [View.set_slice_whole, Rect.mem_set_unit]
  exact Iff.rfl

/-- Every index of the result array is in the block of the point its row divided by 512 names. -/
theorem cover (i : S4096x10.Idx) :
    ∃ t : Fin cfg0.N, (cfg0.win 1).flush t = true ∧ i ∈ ((cfg0.win 1).blk t).view.set := by
  have h0 : (i 0).val < 4096 := (i 0).isLt
  have h1 : (i 1).val < 10 := (i 1).isLt
  have hN : cfg0.N = 8 := N_0
  refine ⟨⟨(i 0).val / 512, by rw [hN]; omega⟩, flush0_1 _, ?_⟩
  rw [mem_blk]
  obtain ⟨-, -, -, e3, e4⟩ := index_facts ⟨(i 0).val / 512, by rw [hN]; omega⟩
  intro a
  match a with
  | ⟨0, _⟩ =>
    show win0_1.index _ (0 : Fin 2) * 512 ≤ (i 0).val ∧ (i 0).val < win0_1.index _ (0 : Fin 2) * 512 + 512
    rw [e3]; show (i 0).val / 512 * 512 ≤ (i 0).val ∧ (i 0).val < (i 0).val / 512 * 512 + 512; omega
  | ⟨1, _⟩ =>
    show win0_1.index _ (1 : Fin 2) * 10 ≤ (i 1).val ∧ (i 1).val < win0_1.index _ (1 : Fin 2) * 10 + 10
    rw [e4]; omega

/-- The result array after the run: the pooled-and-normalised array of `u`. -/
theorem final (c : Dev nD) : (dats m 0 c).arrAt 1 cfg0.N = pooled (V m c main_arg0) :=
  (dats m 0 c).arrAt_eq_of_cover 1 (pooled (V m c main_arg0)) (fun t _ => flushed_eq m c t) cover

/-- The run: it ends with the result array at the pooled-and-normalised array of `u`, and `u` as it was. -/
theorem run : θ_run defs (onTc (τ := τ) (main (F := Ideal))) ⟨m, fun _ => 0, ρ⟩ fun r => ∀ c : Dev nD,
      r.2.mem ((c.tc : Thread nD τ).loc main_v0) = pooled (m ((c.tc : Thread nD τ).loc main_arg0))
      ∧ r.2.mem ((c.tc : Thread nD τ).loc main_arg0) = m ((c.tc : Thread nD τ).loc main_arg0) :=
  (θ_run defs _ _).mono (fun r h c => ⟨((h c).1 1).trans (final m c),
      ((h c).1 0).trans (((dats m 0 c).arrAt_in 0 rfl _).trans (A_eq m c 0))⟩)
    (run_main m ρ)

end Cert.KernelIdeal.ArrayValue

end
-- ==== Proof.PoolReference.lean ====
/-
  The reference program's result, read over the extended reals, is the pooled-and-normalised array.

  The reference squares `|u|` over the whole array, slices the corner `[0 ‥ 4095, 0 ‥ 11, 0 ‥ 11]`, and sums it over its
  two trailing axes into one number per image — ten times over, the ten regions being one region —; lays the ten
  equal columns side by side; and divides each row by its Euclidean norm.
  * One region's sum at image `b` is the zero it starts from plus the sum, over the corner's indices whose first
    coordinate is `b`, of `|u| · |u|`; that is the double sum of `u · u` over (r, c) (`PoolSpec.sum_fiber`,
    `PoolSpec.abs_mul_abs`): image `b`'s energy (`energy_ref`).
  * The ten regions are the same term, so the ten columns laid side by side are ten copies of one column, and entry
    (b, q) of the row is that column's entry `b` (`row_ref`).
  * The row's norm is the square root of the zero it starts from plus the sum of the ten squares; the quotient is the
    extended reals' (`ref_eq_pooled`).
-/
import proofs.«162748_j56538949484865_2_alg».proof.Proof.Gen.ReferenceIdeal.Read
import proofs.«162748_j56538949484865_2_alg».proof.Proof.PoolSpec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.PoolSpec
open Idealize.ShloMosaic Idealize.ShloMosaic.ValueIdx
open scoped BigOperators

variable (x0 : (⟨S4096x250x250, .f32⟩ : BufTy).Contents (Elt Ideal))

/-- A corner index reduces to image `b` exactly when its first coordinate is `b`. -/
theorem drop_eq_iff (i : S4096x12x12.Idx) (b : Fin 4096) :
    reducesTo_S4096x12x12_S4096_d1_2.drop i = ix1 b ↔ (i 0).val = b.val := by
  have hv : ((reducesTo_S4096x12x12_S4096_d1_2.drop i) 0).val = (i 0).val :=
    Shape.ReducesTo.drop_apply_val_of_eq reducesTo_S4096x12x12_S4096_d1_2 i 0 0
  constructor
  · intro h; rw [← hv, h]
  · intro h; funext d
    match d with
    | ⟨0, _⟩ => exact Fin.ext (hv.trans h)

/-- The float zero word is the extended real 0. -/
theorem zero_word : val_main_cst (F := Ideal) (Shape.Idx.first h_S_) = 0 := Ideal.ofBits_zero_f32

/-- One region's sum at image `b`: the image's energy. -/
theorem energy_ref (b : Fin 4096) :
    val_main_v3 (F := Ideal) x0 (ix1 b) = energyOf fun r c => x0 (corner b r c) := by
  unfold val_main_v3
  show Ideal.hostReduceAdd reducesTo_S4096x12x12_S4096_d1_2 (val_main_v2 (F := Ideal) x0)
    (val_main_cst (F := Ideal) (Shape.Idx.first h_S_)) (ix1 b) = _
  unfold Ideal.hostReduceAdd
  rw [zero_word, zero_add, Finset.filter_congr (fun i _ => drop_eq_iff i b)]
  refine (sum_fiber (val_main_v2 (F := Ideal) x0) b).trans ?_
  unfold energyOf
  refine Finset.sum_congr rfl fun r _ => Finset.sum_congr rfl fun c _ => ?_
  rw [val_main_v2_apply, val_main_v1_apply, val_main_v0_apply]
  have hidx : idx_main_v2 (ix3 b r c) = corner b r c :=
    funext fun a => match a with | ⟨0, _⟩ => rfl | ⟨1, _⟩ => rfl | ⟨2, _⟩ => rfl
  rw [hidx]
  exact abs_mul_abs _

/-- The ten columns laid side by side are ten copies of one column: entry (b, q) of the row is image `b`'s energy. -/
theorem row_ref (b : Fin 4096) (q : Fin 10) :
    val_main_v32 (F := Ideal) x0 (ix2 b q) = energyOf fun r c => x0 (corner b r c) := by
  have hrep : val_main_v32 (F := Ideal) x0
      = concatenate S4096x10 1 (List.replicate 10 (⟨S4096x1, val_main_v22 (F := Ideal) x0⟩ : (s : Shape) × (s.Idx → Ideal .f32)))
          concatenates_S4096x1_S4096x1_S4096x1_S4096x1_S4096x1_S4096x1_S4096x1_S4096x1_S4096x1_S4096x1_S4096x10_d1 := rfl
  rw [hrep]
  refine (concatenate_replicate_apply (t := S4096x10) (s₁ := S4096x1) (1 : Fin 2) 10 (val_main_v22 (F := Ideal) x0) _ rfl (ix2 b q) (ix2 b (0 : Fin 1)) ?_ ?_).trans ?_
  · show 0 = q.val % 1; omega
  · intro d hd
    match d with
    | ⟨0, _⟩ => rfl
    | ⟨1, _⟩ => exact absurd rfl hd
  · have hcol : idx_main_v22 (ix2 b (0 : Fin 1)) = ix1 b := funext fun a => match a with | ⟨0, _⟩ => rfl
    rw [val_main_v22_apply, hcol]
    exact energy_ref x0 b

/-- The reference's result is the pooled-and-normalised array. -/
theorem ref_eq_pooled : val_main_v38 (F := Ideal) x0 = pooled x0 := by
  funext i
  obtain ⟨b, q, rfl⟩ : ∃ (b : Fin 4096) (q : Fin 10), i = ix2 b q := ⟨i 0, i 1, eq_ix2 i⟩
  rw [val_main_v38_apply, val_main_v37_apply, val_main_v36_apply, val_main_v35_apply, val_main_v34_apply]
  have hk : ∀ k : Fin 10, idx_main_v34 (idx_main_v35 (idx_main_v37 (ix2 b q))) k = ix2 b k :=
    fun k => funext fun a => match a with | ⟨0, _⟩ => rfl | ⟨1, _⟩ => rfl
  simp only [val_main_v33_apply, hk, row_ref]
  rw [show val_main_cst_9 (F := Ideal) (Shape.Idx.first h_S_) = 0 from Ideal.ofBits_zero_f32, zero_add]
  rfl

end Cert.ReferenceIdeal.RefValue

end
-- ==== Proof.lean ====
/-
  The certificate of the pooling kernel against its reference.

  Both programs take an image array `u : f32[4096, 250, 250]` and return `f32[4096, 10]`: in each of row `b`'s ten
  places, the energy `∑ r < 12, ∑ c < 12, u[b, r, c]²` of image `b`'s top-left 12 × 12 corner, divided by the Euclidean
  norm of the row of ten such entries (`PoolSpec.pooled`).
  * The kernel runs on a grid of eight points, each pooling 512 images from a staged block of `u`; its frame (it
    runs to the end, faults nowhere and leaves `u` as it was) is proved once for the word-level program and once for
    the program read over the extended reals (`PoolFrameBits`, `PoolFrameIdeal`); the idealised program's result array
    ends at `PoolSpec.pooled u` (`PoolBlockValue`, `PoolKernelArray`).
  * The reference is a straight line of host operations; its run is generated, and its result read over the
    extended reals is `PoolSpec.pooled u` too (`PoolReference`).
  * The idealisation rewrote no operation, so there is nothing to preserve.
  The two results are one function of arrays that agree, on every extended real: no step of the comparison needs the
  inputs finite (squaring `|x|` is squaring `x`; sums are regrouped, never distributed over).
-/
import proofs.«162748_j56538949484865_2_alg».proof.Defs
import proofs.«162748_j56538949484865_2_alg».proof.Proof.Gen.Kernel
import proofs.«162748_j56538949484865_2_alg».proof.Proof.Gen.KernelIdeal
import proofs.«162748_j56538949484865_2_alg».proof.Proof.Gen.ReferenceIdeal
import proofs.«162748_j56538949484865_2_alg».proof.Proof.Gen.ReferenceIdeal.Run
import proofs.«162748_j56538949484865_2_alg».proof.Proof.Gen.ReferenceIdeal.Read
import proofs.«162748_j56538949484865_2_alg».proof.Proof.Gen.Pre_finite_inputs
import proofs.«162748_j56538949484865_2_alg».proof.Proof.PoolFrameBits
import proofs.«162748_j56538949484865_2_alg».proof.Proof.PoolFrameIdeal
import proofs.«162748_j56538949484865_2_alg».proof.Proof.PoolKernelArray
import proofs.«162748_j56538949484865_2_alg».proof.Proof.PoolReference
import Idealize.ShloMosaic.Adequacy
import Idealize.ShloMosaic.Init

noncomputable section

namespace Cert.Proof

open Idealize.ShloMosaic Idealize.ShloMosaic.TcCoe Idealize.SL.Sem

/-- The word-level kernel runs, faults nowhere and leaves `u` as it was. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- So does the reference: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Over the extended reals the kernel's result array and the reference's both end at the pooled-and-normalised array
    of arguments that agree. -/
theorem algebraic : Cert.algebraic_KernelIdeal_ReferenceIdeal := by
  intro m ρ m' ρ' _ hagree
  refine ⟨fun c => Cert.PoolSpec.pooled (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v38_eq, Cert.ReferenceIdeal.RefValue.ref_eq_pooled, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
